-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2 : Shape := ⟨2, ![10000, 2]⟩
abbrev S10000x1 : Shape := ⟨2, ![10000, 1]⟩
abbrev S2x320000 : Shape := ⟨2, ![2, 320000]⟩
abbrev S320000x4 : Shape := ⟨2, ![320000, 4]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S320000x4 : S_.BroadcastsInDim S320000x4 (![] : Fin 0 → Fin S320000x4.rank)
  reducesTo_S320000x4_S_d0_1 : S320000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S128 .f32) (main_arg7 : FVec F S128x3 .f32) (main_arg8 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg7
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S10000x128 .f32) (main_arg1 : IVec S10000x2 32) (main_arg2 : FVec F S10000x1 .f32) (main_arg3 : IVec S2x320000 32) (main_arg4 : FVec F S320000x4 .f32) (main_arg5 : FVec F S128x128 .f32) (main_arg6 : FVec F S128 .f32) (main_arg7 : FVec F S128x3 .f32) (main_arg8 : FVec F S3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x1 .f32 := Host.absf main_arg2
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S320000x4 .f32 := Host.absf main_arg4
  let main_cst_2 : FVec F S_ .f32 := constant S_ .f32 0x7F800000#32
  let main_v10 : FVec F S320000x4 .f32 := broadcastInDim S320000x4 ![] bcast_S_S320000x4 main_cst_2
  let main_v11 : IVec S320000x4 1 := cmpf .olt main_v9 main_v10
  let main_c_3 : IVec S_ 1 := constantI S_ 1 1#1
  let main_v12 : IVec S_ 1 := (fun x v => Host.reduce IntOp.andi x v reducesTo_S320000x4_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S10000x128 : Shape := ⟨2, ![10000, 128]⟩
abbrev S10000x2 : Shape := ⟨2, ![10000, 2]⟩
abbrev S10000x1 : Shape := ⟨2, ![10000, 1]⟩
abbrev S2x320000 : Shape := ⟨2, ![2, 320000]⟩
abbrev S320000x4 : Shape := ⟨2, ![320000, 4]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x320000 : Shape := ⟨2, ![1, 320000]⟩
abbrev S320000 : Shape := ⟨1, ![320000]⟩
abbrev S10000 : Shape := ⟨1, ![10000]⟩
abbrev S_ : Shape := ⟨0, ![]⟩
abbrev S320000x1 : Shape := ⟨2, ![320000, 1]⟩
abbrev S10000x3 : Shape := ⟨2, ![10000, 3]⟩
abbrev S1000x128 : Shape := ⟨2, ![1000, 128]⟩
abbrev S1000x3 : Shape := ⟨2, ![1000, 3]⟩
abbrev S1x128 : Shape := ⟨2, ![1, 128]⟩
abbrev S1x3 : Shape := ⟨2, ![1, 3]⟩
abbrev S320000x3 : Shape := ⟨2, ![320000, 3]⟩

abbrev nBuf : Space → Nat
  | .hbm => 128
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x2, .i32⟩
  | .hbm, ⟨2, _⟩ => ⟨S10000x1, .f32⟩
  | .hbm, ⟨3, _⟩ => ⟨S2x320000, .i32⟩
  | .hbm, ⟨4, _⟩ => ⟨S320000x4, .f32⟩
  | .hbm, ⟨5, _⟩ => ⟨S128x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S10000x1, .i32⟩
  | .hbm, ⟨14, _⟩ => ⟨S10000, .i32⟩
  | .hbm, ⟨15, _⟩ => ⟨S_, .i32⟩
  | .hbm, ⟨16, _⟩ => ⟨S10000, .i32⟩
  | .hbm, ⟨17, _⟩ => ⟨S10000, .i1⟩
  | .hbm, ⟨18, _⟩ => ⟨S320000x1, .f32⟩
  | .hbm, ⟨19, _⟩ => ⟨S320000, .f32⟩
  | .hbm, ⟨20, _⟩ => ⟨S_, .f32⟩
  | .hbm, ⟨21, _⟩ => ⟨S320000, .f32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S320000, .i1⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000, .i1⟩
  | .hbm, ⟨42, _⟩ => ⟨S320000, .i1⟩
  | .hbm, ⟨43, _⟩ => ⟨S320000, .i1⟩
  | .hbm, ⟨44, _⟩ => ⟨S10000x3, .f32⟩
  | .hbm, ⟨45, _⟩ => ⟨S320000, .f32⟩
  | .hbm, ⟨46, _⟩ => ⟨S320000x1, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x1, .f32⟩
  | .hbm, ⟨56, _⟩ => ⟨S_, .f32⟩
  | .hbm, ⟨57, _⟩ => ⟨S_, .f32⟩
  | .hbm, ⟨58, _⟩ => ⟨S320000x1, .f32⟩
  | .hbm, ⟨59, _⟩ => ⟨S320000x1, .f32⟩
  | .hbm, ⟨60, _⟩ => ⟨S320000x1, .f32⟩
  | .hbm, ⟨61, _⟩ => ⟨S_, .f32⟩
  | .hbm, ⟨62, _⟩ => ⟨S10000x1, .f32⟩
  | .hbm, ⟨63, _⟩ => ⟨S320000x1, .i32⟩
  | .hbm, ⟨64, _⟩ => ⟨S10000x1, .f32⟩
  | .hbm, ⟨65, _⟩ => ⟨S_, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S_, .i32⟩
  | .hbm, ⟨70, _⟩ => ⟨S320000, .i32⟩
  | .hbm, ⟨71, _⟩ => ⟨S320000, .i1⟩
  | .hbm, ⟨72, _⟩ => ⟨S_, .i32⟩
  | .hbm, ⟨73, _⟩ => ⟨S320000, .i32⟩
  | .hbm, ⟨74, _⟩ => ⟨S320000, .i32⟩
  | .hbm, ⟨75, _⟩ => ⟨S320000, .i32⟩
  | .hbm, ⟨76, _⟩ => ⟨S320000x1, .i32⟩
  | .hbm, ⟨77, _⟩ => ⟨S320000x3, .f32⟩
  | .hbm, ⟨78, _⟩ => ⟨S320000x3, .f32⟩
  | .hbm, ⟨79, _⟩ => ⟨S320000x3, .f32⟩
  | .hbm, ⟨80, _⟩ => ⟨S_, .f32⟩
  | .hbm, ⟨81, _⟩ => ⟨S10000x3, .f32⟩
  | .hbm, ⟨82, _⟩ => ⟨S320000x1, .i32⟩
  | .hbm, ⟨83, _⟩ => ⟨S10000x3, .f32⟩
  | .hbm, ⟨84, _⟩ => ⟨S10000x3, .f32⟩
  | .hbm, ⟨85, _⟩ => ⟨S10000x3, .f32⟩
  | .hbm, ⟨86, _⟩ => ⟨S_, .i32⟩
  | .hbm, ⟨87, _⟩ => ⟨S320000, .i32⟩
  | .hbm, ⟨88, _⟩ => ⟨S320000, .i1⟩
  | .hbm, ⟨89, _⟩ => ⟨S_, .i32⟩
  | .hbm, ⟨90, _⟩ => ⟨S320000, .i32⟩
  | .hbm, ⟨91, _⟩ => ⟨S320000, .i32⟩
  | .hbm, ⟨92, _⟩ => ⟨S320000, .i32⟩
  | .hbm, ⟨93, _⟩ => ⟨S320000x1, .i32⟩
  | .hbm, ⟨94, _⟩ => ⟨S320000x3, .f32⟩
  | .hbm, ⟨95, _⟩ => ⟨S_, .i32⟩
  | .hbm, ⟨96, _⟩ => ⟨S320000, .i32⟩
  | .hbm, ⟨97, _⟩ => ⟨S320000, .i1⟩
  | .hbm, ⟨98, _⟩ => ⟨S_, .i32⟩
  | .hbm, ⟨99, _⟩ => ⟨S320000, .i32⟩
  | .hbm, ⟨100, _⟩ => ⟨S320000, .i32⟩
  | .hbm, ⟨101, _⟩ => ⟨S320000, .i32⟩
  | .hbm, ⟨102, _⟩ => ⟨S320000x1, .i32⟩
  | .hbm, ⟨103, _⟩ => ⟨S320000x3, .f32⟩
  | .hbm, ⟨104, _⟩ => ⟨S320000x3, .f32⟩
  | .hbm, ⟨105, _⟩ => ⟨S_, .i32⟩
  | .hbm, ⟨106, _⟩ => ⟨S320000, .i32⟩
  | .hbm, ⟨107, _⟩ => ⟨S320000, .i1⟩
  | .hbm, ⟨108, _⟩ => ⟨S_, .i32⟩
  | .hbm, ⟨109, _⟩ => ⟨S320000, .i32⟩
  | .hbm, ⟨110, _⟩ => ⟨S320000, .i32⟩
  | .hbm, ⟨111, _⟩ => ⟨S320000, .i32⟩
  | .hbm, ⟨112, _⟩ => ⟨S320000x1, .i32⟩
  | .hbm, ⟨113, _⟩ => ⟨S320000x3, .f32⟩
  | .hbm, ⟨114, _⟩ => ⟨S320000x3, .f32⟩
  | .hbm, ⟨115, _⟩ => ⟨S_, .i32⟩
  | .hbm, ⟨116, _⟩ => ⟨S_, .i32⟩
  | .hbm, ⟨117, _⟩ => ⟨S320000, .i32⟩
  | .hbm, ⟨118, _⟩ => ⟨S320000, .i32⟩
  | .hbm, ⟨119, _⟩ => ⟨S_, .i32⟩
  | .hbm, ⟨120, _⟩ => ⟨S320000, .i32⟩
  | .hbm, ⟨121, _⟩ => ⟨S320000, .i1⟩
  | .hbm, ⟨122, _⟩ => ⟨S_, .i32⟩
  | .hbm, ⟨123, _⟩ => ⟨S320000, .i32⟩
  | .hbm, ⟨124, _⟩ => ⟨S320000, .i32⟩
  | .hbm, ⟨125, _⟩ => ⟨S320000, .i32⟩
  | .hbm, ⟨126, _⟩ => ⟨S320000x1, .i32⟩
  | .hbm, ⟨127, _⟩ => ⟨S10000x3, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128, .f32⟩
  | .local _ .vmem, ⟨4, _⟩ => ⟨S128x3, .f32⟩
  | .local _ .vmem, ⟨5, _⟩ => ⟨S3, .f32⟩
  | .local _ .vmem, ⟨6, _⟩ => ⟨S1000x3, .f32⟩
  | .local _ .vmem, ⟨7, _⟩ => ⟨S1000x3, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_call2_v0 : Ref sig .tc := ⟨.hbm, 116, rfl⟩
abbrev main_call2_v1 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_c_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S10000x2_S10000x1_0_1 : S10000x2.Slices ![0, 1] S10000x1
  shapeCasts_S10000x1_S10000 : S10000x1.ShapeCasts S10000
  bcast_S_S10000 : S_.BroadcastsInDim S10000 (![] : Fin 0 → Fin S10000.rank)
  slices_S320000x4_S320000x1_0_0 : S320000x4.Slices ![0, 0] S320000x1
  shapeCasts_S320000x1_S320000 : S320000x1.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  bcast_S_S320000x1 : S_.BroadcastsInDim S320000x1 (![] : Fin 0 → Fin S320000x1.rank)
  bcast_S_S10000x1 : S_.BroadcastsInDim S10000x1 (![] : Fin 0 → Fin S10000x1.rank)
  bcast_S320000x1_S320000x3_0_1 : S320000x1.BroadcastsInDim S320000x3 (![0, 1] : Fin 2 → Fin S320000x3.rank)
  bcast_S_S10000x3 : S_.BroadcastsInDim S10000x3 (![] : Fin 0 → Fin S10000x3.rank)
  bcast_S10000x1_S10000x3_0_1 : S10000x1.BroadcastsInDim S10000x3 (![0, 1] : Fin 2 → Fin S10000x3.rank)
  gather_S10000_S320000x1_S320000_n_0_n_n_0_1_1_wf : GatherDims.WF S10000 S320000x1 S320000 [] [0] [] [0] [] 1 ![1]
  dot_S1000x128_S128x128_S1000x128_1_0_0_1_n_n_wf : DotDims.WF S1000x128 S128x128 S1000x128 [1] [0] [0] [1] [] []
  dot_S1000x128_S128x3_S1000x3_1_0_0_1_n_n_wf : DotDims.WF S1000x128 S128x3 S1000x3 [1] [0] [0] [1] [] []
  gather_S10000x1_S320000x1_S320000x1_1_0_n_n_0_1_11_wf : GatherDims.WF S10000x1 S320000x1 S320000x1 [1] [0] [] [0] [] 1 ![1, 1]
  scatter_S10000x1_S320000x1_S320000x1_1_0_0_1_wf : ScatterDims.WF S10000x1 S320000x1 S320000x1 [1] [0] [0] 1
  gather_S10000x3_S320000x1_S320000x3_1_0_n_n_0_1_13_wf : GatherDims.WF S10000x3 S320000x1 S320000x3 [1] [0] [] [0] [] 1 ![1, 3]
  scatter_S10000x3_S320000x1_S320000x3_1_0_0_1_wf : ScatterDims.WF S10000x3 S320000x1 S320000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x3.size a ≤ S10000x3.size a
  hwx0_5 : ∀ i : grid0.Coords, EltTy.bits .f32 = 32 ∨ (Rect.block (s := S10000x3) S1000x3.size (cc0_transform_5 i) (hinb0_5 i)).WholeWords (EltTy.packing .f32)

variable [Facts₀]

def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x2 : Shape := ⟨2, ![10000, 2]⟩
abbrev S10000x1 : Shape := ⟨2, ![10000, 1]⟩
abbrev S2x320000 : Shape := ⟨2, ![2, 320000]⟩
abbrev S320000x4 : Shape := ⟨2, ![320000, 4]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x320000 : Shape := ⟨2, ![1, 320000]⟩
abbrev S320000 : Shape := ⟨1, ![320000]⟩
abbrev S10000 : Shape := ⟨1, ![10000]⟩
abbrev S_ : Shape := ⟨0, ![]⟩
abbrev S320000x1 : Shape := ⟨2, ![320000, 1]⟩
abbrev S1x128 : Shape := ⟨2, ![1, 128]⟩
abbrev S10000x3 : Shape := ⟨2, ![10000, 3]⟩
abbrev S1x3 : Shape := ⟨2, ![1, 3]⟩
abbrev S320000x3 : Shape := ⟨2, ![320000, 3]⟩

abbrev nBuf : Space → Nat
  | .hbm => 138
  | .vmem => 0
  | .smem => 0
  | _ => 0

abbrev hbmTy0_0 (i : Nat) : BufTy := match i % 128 with
  | 0 => ⟨S10000x128, .f32⟩
  | 1 => ⟨S10000x2, .i32⟩
  | 2 => ⟨S10000x1, .f32⟩
  | 3 => ⟨S2x320000, .i32⟩
  | 4 => ⟨S320000x4, .f32⟩
  | 5 => ⟨S128x128, .f32⟩
  | 6 => ⟨S128, .f32⟩
  | 7 => ⟨S128x3, .f32⟩
  | 8 => ⟨S3, .f32⟩
  | 9 => ⟨S1x320000, .i32⟩
  | 10 => ⟨S320000, .i32⟩
  | 11 => ⟨S1x320000, .i32⟩
  | 12 => ⟨S320000, .i32⟩
  | 13 => ⟨S10000x1, .i32⟩
  | 14 => ⟨S10000, .i32⟩
  | 15 => ⟨S_, .i32⟩
  | 16 => ⟨S10000, .i32⟩
  | 17 => ⟨S10000, .i1⟩
  | 18 => ⟨S320000x1, .f32⟩
  | 19 => ⟨S320000, .f32⟩
  | 20 => ⟨S_, .f32⟩
  | 21 => ⟨S320000, .f32⟩
  | 22 => ⟨S320000, .i1⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .i1⟩
  | 32 => ⟨S320000, .i1⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .i1⟩
  | 42 => ⟨S320000, .i1⟩
  | 43 => ⟨S320000, .i1⟩
  | 44 => ⟨S10000x128, .f32⟩
  | 45 => ⟨S1x128, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S10000x3, .f32⟩
  | 52 => ⟨S1x3, .f32⟩
  | 53 => ⟨S10000x3, .f32⟩
  | 54 => ⟨S10000x3, .f32⟩
  | 55 => ⟨S320000, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x1, .f32⟩
  | 66 => ⟨S_, .f32⟩
  | 67 => ⟨S_, .f32⟩
  | 68 => ⟨S320000x1, .f32⟩
  | 69 => ⟨S320000x1, .f32⟩
  | 70 => ⟨S320000x1, .f32⟩
  | 71 => ⟨S_, .f32⟩
  | 72 => ⟨S10000x1, .f32⟩
  | 73 => ⟨S320000x1, .i32⟩
  | 74 => ⟨S10000x1, .f32⟩
  | 75 => ⟨S_, .f32⟩
  | 76 => ⟨S_, .f32⟩
  | 77 => ⟨S10000x1, .f32⟩
  | 78 => ⟨S10000x1, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x3, .f32⟩
  | 88 => ⟨S320000x3, .f32⟩
  | 89 => ⟨S320000x3, .f32⟩
  | 90 => ⟨S_, .f32⟩
  | 91 => ⟨S10000x3, .f32⟩
  | 92 => ⟨S320000x1, .i32⟩
  | 93 => ⟨S10000x3, .f32⟩
  | 94 => ⟨S10000x3, .f32⟩
  | 95 => ⟨S10000x3, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x3, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x3, .f32⟩
  | 114 => ⟨S320000x3, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x3, .f32⟩
  | 124 => ⟨S320000x3, .f32⟩
  | 125 => ⟨S_, .i32⟩
  | 126 => ⟨S_, .i32⟩
  | 127 => ⟨S320000, .i32⟩
  | _ => ⟨S10000x128, .f32⟩

abbrev hbmTy0_1 (i : Nat) : BufTy := match i % 128 with
  | 0 => ⟨S320000, .i32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S10000x3, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_c_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_18 : Ref sig .tc := ⟨.hbm, 125, rfl⟩
abbrev main_call3_v0 : Ref sig .tc := ⟨.hbm, 126, rfl⟩
abbrev main_call3_v1 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S10000x2_S10000x1_0_1 : S10000x2.Slices ![0, 1] S10000x1
  shapeCasts_S10000x1_S10000 : S10000x1.ShapeCasts S10000
  bcast_S_S10000 : S_.BroadcastsInDim S10000 (![] : Fin 0 → Fin S10000.rank)
  slices_S320000x4_S320000x1_0_0 : S320000x4.Slices ![0, 0] S320000x1
  shapeCasts_S320000x1_S320000 : S320000x1.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  bcast_S_S320000x1 : S_.BroadcastsInDim S320000x1 (![] : Fin 0 → Fin S320000x1.rank)
  bcast_S_S10000x1 : S_.BroadcastsInDim S10000x1 (![] : Fin 0 → Fin S10000x1.rank)
  bcast_S320000x1_S320000x3_0_1 : S320000x1.BroadcastsInDim S320000x3 (![0, 1] : Fin 2 → Fin S320000x3.rank)
  bcast_S_S10000x3 : S_.BroadcastsInDim S10000x3 (![] : Fin 0 → Fin S10000x3.rank)
  bcast_S10000x1_S10000x3_0_1 : S10000x1.BroadcastsInDim S10000x3 (![0, 1] : Fin 2 → Fin S10000x3.rank)
  gather_S10000_S320000x1_S320000_n_0_n_n_0_1_1_wf : GatherDims.WF S10000 S320000x1 S320000 [] [0] [] [0] [] 1 ![1]
  dot_S10000x128_S128x128_S10000x128_1_0_0_1_n_n_wf : DotDims.WF S10000x128 S128x128 S10000x128 [1] [0] [0] [1] [] []
  dot_S10000x128_S128x3_S10000x3_1_0_0_1_n_n_wf : DotDims.WF S10000x128 S128x3 S10000x3 [1] [0] [0] [1] [] []
  gather_S10000x1_S320000x1_S320000x1_1_0_n_n_0_1_11_wf : GatherDims.WF S10000x1 S320000x1 S320000x1 [1] [0] [] [0] [] 1 ![1, 1]
  scatter_S10000x1_S320000x1_S320000x1_1_0_0_1_wf : ScatterDims.WF S10000x1 S320000x1 S320000x1 [1] [0] [0] 1
  gather_S10000x3_S320000x1_S320000x3_1_0_n_n_0_1_13_wf : GatherDims.WF S10000x3 S320000x1 S320000x3 [1] [0] [] [0] [] 1 ![1, 3]
  scatter_S10000x3_S320000x1_S320000x3_1_0_0_1_wf : ScatterDims.WF S10000x3 S320000x1 S320000x3 [1] [0] [0] 1

variable [Facts₀]

def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf

class Facts : Prop extends Facts₀ where

variable [Facts]
-- ==== Proof.MlpRunBits.lean ====
/-
  The run of the program around its one launch, and what it leaves.

  The program is: host lines computing the edge mask from the integer inputs; one launch over a grid of ten
  points, point t taking rows 1000·t … 1000·t + 999 of the node features together with the whole of both weight
  matrices and both bias vectors, and writing rows 1000·t … 1000·t + 999 of a [10000, 3] array; then host lines
  that gather, scatter-add, divide and scatter over that array and the other inputs.

  Here: the buffer contents when the launch is entered; that the later lines allocate nothing and never write an
  array the launch stages; what the body leaves in the output block (its one store, covering the block); the
  body's triple; the proof data of the launch; and the run — every execution terminates without fault, each
  staged array ends at what its write-backs left, and every other buffer at what the later lines compute from that.
  All of it holds at any float instance.
-/
import proofs.«167874_g68504728371696_cont_9to1c4b_637_2_alg».proof.Proof.Gen.Kernel.Launch
import proofs.«167874_g68504728371696_cont_9to1c4b_637_2_alg».proof.Proof.Gen.Kernel.Skeleton
import proofs.«167874_g68504728371696_cont_9to1c4b_637_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The lines after the launch, stretch by stretch. -/
abbrev tailOps : List (List (HloOp τ sig (Elt F))) :=
  [hostOps1, hostOps1_1, hostOps1_2, hostOps1_3, hostOps1_4, hostOps1_5, hostOps1_6]

/-- The buffer contents of core `c` when the launch is entered: the lines before it applied to the initial memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor

/-- The program is: the lines before the launch, the launch, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh0) main_chain

/-- Membership in the list of stretches, spelt out. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5 ∨ ops = hostOps1_6 := by
  simpa only [List.mem_cons, List.mem_nil_iff, or_false] using h

/-- The later lines touch only the staged arrays and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  rcases mem_tailOps hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

/-- A reference that is no result buffer of the lines before the launch is not written by them. -/
theorem pre_keeps (r : Ref sig .tc)
    (hr : r ∉ ([main_v0, main_v1, main_v2, main_v3, main_v4, main_v5, main_c, main_v6, main_v7, main_v8, main_v9, main_cst,
      main_v10, main_v11, main_c_0, main_v12, main_v13, main_c_1, main_v14, main_v15, main_v16, main_v17, main_v18, main_v19,
      main_c_2, main_v20, main_v21, main_c_3, main_v22, main_v23, main_v24, main_v25, main_v26, main_v27, main_v28] : List (Ref sig .tc))) :
    ∀ op ∈ (hostOps0 : List (HloOp τ sig (Elt F))), Proc.devRef .tc r ∉ op.writes := by
  refine List.forall_iff_forall_mem.mp ?_
  simp only [List.mem_cons, List.mem_nil_iff, or_false, not_or] at hr
  simp only [hostOps0, List.Forall, StableHlo.nullary_writes, StableHlo.unary_writes, StableHlo.binary_writes,
    StableHlo.ternary_writes, StableHlo.reshape_writes, Finset.mem_singleton]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine StableHlo.devRef_ne_of_ne ?_ <;> simp only [hr, not_false_eq_true, ne_eq]

/-- The result buffers of the lines after the launch. -/
abbrev tailResults : List (Ref sig .tc) :=
  [main_v30, main_v31, main_c_4, main_v32, main_v33, main_c_5, main_v34, main_v35, main_v36, main_v37, main_v38, main_cst_6,
   main_call0_v0, main_call0_v1, main_v39,
   main_v40, main_cst_7, main_v41, main_v42, main_v43, main_cst_8,
   main_call1_v0, main_call1_v1, main_v44,
   main_c_9, main_v45, main_v46, main_c_10, main_v47, main_v48, main_v49, main_v50, main_v51, main_v52, main_v53, main_cst_11,
   main_v54, main_v55, main_v56, main_v57, main_v58, main_c_12, main_v59, main_v60, main_c_13, main_v61, main_v62, main_v63,
   main_v64, main_v65, main_c_14, main_v66, main_v67, main_c_15, main_v68, main_v69, main_v70, main_v71, main_v72, main_v73,
   main_c_16, main_v74, main_v75, main_c_17, main_v76, main_v77, main_v78, main_v79, main_v80, main_v81, main_c_18,
   main_call2_v0, main_call2_v1, main_v82,
   main_c_19, main_v83, main_v84, main_c_20, main_v85, main_v86, main_v87, main_v88, main_v89]

/-- A reference that is no result buffer of the lines after the launch is not written by them. -/
theorem tail_keeps (r : Ref sig .tc) (hr : r ∉ tailResults) :
    ∀ ops ∈ (tailOps : List (List (HloOp τ sig (Elt F)))), ∀ op ∈ ops, Proc.devRef .tc r ∉ op.writes := by
  simp only [tailResults, List.mem_cons, List.mem_nil_iff, or_false, not_or] at hr
  intro ops hops
  rcases mem_tailOps hops with rfl | rfl | rfl | rfl | rfl | rfl | rfl <;>
    refine List.forall_iff_forall_mem.mp ?_ <;>
    simp only [hostOps1, hostOps1_1, hostOps1_2, hostOps1_3, hostOps1_4, hostOps1_5, hostOps1_6, List.Forall,
      StableHlo.TRef.unary, StableHlo.TRef.binary, StableHlo.TRef.ternary, StableHlo.TRef.of,
      StableHlo.nullary_writes, StableHlo.unary_writes, StableHlo.binary_writes,
      StableHlo.ternary_writes, StableHlo.reshape_writes, Finset.mem_singleton] <;>
    repeat' apply And.intro
  all_goals refine StableHlo.devRef_ne_of_ne ?_
  all_goals simp only [hr, not_false_eq_true, ne_eq]

/-- The later lines write no staged array. -/
theorem tail_keeps_arrays : ∀ ops ∈ (tailOps : List (List (HloOp τ sig (Elt F)))), ∀ op ∈ ops,
    ∀ w, Proc.devRef .tc (Pipeline.arrRef spec0 w) ∉ op.writes := by
  intro ops hops op hop w
  exact tail_keeps (Pipeline.arrRef spec0 w) (by fin_cases w <;> decide) ops hops op hop

/-- The result buffers of the lines before the launch. -/
abbrev preResults : List (Ref sig .tc) :=
  [main_v0, main_v1, main_v2, main_v3, main_v4, main_v5, main_c, main_v6, main_v7, main_v8, main_v9, main_cst,
   main_v10, main_v11, main_c_0, main_v12, main_v13, main_c_1, main_v14, main_v15, main_v16, main_v17, main_v18, main_v19,
   main_c_2, main_v20, main_v21, main_c_3, main_v22, main_v23, main_v24, main_v25, main_v26, main_v27, main_v28]

/-- A buffer the lines before the launch do not write is found by the launch as it was at the start. -/
theorem V_kept (c : Dev nD) (r : Ref sig .tc) (hr : r ∉ preResults) : V m c r = m ((c : Thread nD τ).loc r) :=
  StableHlo.after_of_forall_not_mem (b := Proc.devRef .tc r) _ _ (by
    simp only [List.flatten_cons, List.flatten_nil, List.append_nil]; exact pre_keeps r hr)

/-- A buffer that is no staged array and that the lines after the launch do not write ends as the launch found it. -/
theorem W_kept (dats : (p : Fin 1) → (c : Dev nD) → Dat τ (Elt F) Unit ℕ (UR sig nD τ) ℕ (cfgs p) c) (c : Dev nD)
    (r : Ref sig .tc) (hr : r ∉ tailResults) (ha : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (fun op hop => by
        obtain ⟨ops, hops, hop'⟩ := List.mem_flatten.mp hop
        exact tail_keeps r hr ops hops op hop'),
    Pipeline.withArrays_of_ne _ c (V0 m c) _ r ha]

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current buffer holds its block at every point, whether the point fetched it or not (an
    unfetched window's block index has not moved since the last fetch). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the library's post — each staged array at what its write-backs left, every other buffer at what
    the later lines compute — the nine argument arrays end as they started: the five staged ones are inputs, never
    written back; the other four are written by no host line. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_kept m c main_arg0 (by decide)))),
   ((h c).2 main_arg1 (Pipeline.mem_restRefs_of main_arg1 (by decide) (by decide))).trans
     ((W_kept m dats c main_arg1 (by decide) (by decide)).trans (V_kept m c main_arg1 (by decide))),
   ((h c).2 main_arg2 (Pipeline.mem_restRefs_of main_arg2 (by decide) (by decide))).trans
     ((W_kept m dats c main_arg2 (by decide) (by decide)).trans (V_kept m c main_arg2 (by decide))),
   ((h c).2 main_arg3 (Pipeline.mem_restRefs_of main_arg3 (by decide) (by decide))).trans
     ((W_kept m dats c main_arg3 (by decide) (by decide)).trans (V_kept m c main_arg3 (by decide))),
   ((h c).2 main_arg4 (Pipeline.mem_restRefs_of main_arg4 (by decide) (by decide))).trans
     ((W_kept m dats c main_arg4 (by decide) (by decide)).trans (V_kept m c main_arg4 (by decide))),
   ((h c).1 1).trans (((dats 0 c).arrAt_in 1 rfl _).trans ((hA c 1).trans (V_kept m c main_arg5 (by decide)))),
   ((h c).1 2).trans (((dats 0 c).arrAt_in 2 rfl _).trans ((hA c 2).trans (V_kept m c main_arg6 (by decide)))),
   ((h c).1 3).trans (((dats 0 c).arrAt_in 3 rfl _).trans ((hA c 3).trans (V_kept m c main_arg7 (by decide)))),
   ((h c).1 4).trans (((dats 0 c).arrAt_in 4 rfl _).trans ((hA c 4).trans (V_kept m c main_arg8 (by decide))))⟩

end Cert.Kernel.Mlp

end
-- ==== Proof.MlpBodyBits.lean ====
/-
  The launch's body and the run of the whole program.

  At each grid point the body reads its row block x (1000 × 128) and the whole of W1, b1, W2, b2, and stores
  relu(x·W1 + b1)·W2 + b2 over its whole 1000 × 3 output block (it also reads the output block first, a value it
  never uses). So after the body the output block holds that one stored value, whatever it held before, and the
  input blocks are as they were. With that as the launch's proof data the library's launch theorem gives the run:
  every execution of the program terminates without fault, each staged array ends at what its write-backs left and
  every other buffer at what the host lines after the launch compute; the nine argument arrays end unchanged.
-/
import proofs.«167874_g68504728371696_cont_9to1c4b_637_2_alg».proof.Proof.MlpRunBits

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole buffer -/

abbrev rX : Rect S1000x128 := Rect.unit (s := S1000x128) ![0, 0] S1000x128.size inb_S1000x128_S1000x128_0_0
abbrev rW1 : Rect S128x128 := Rect.unit (s := S128x128) ![0, 0] S128x128.size inb_S128x128_S128x128_0_0
abbrev rB1 : Rect S128 := Rect.unit (s := S128) ![0] S128.size inb_S128_S128_0
abbrev rW2 : Rect S128x3 := Rect.unit (s := S128x3) ![0, 0] S128x3.size inb_S128x3_S128x3_0_0
abbrev rB2 : Rect S3 := Rect.unit (s := S3) ![0] S3.size inb_S3_S3_0
abbrev rOut : Rect S1000x3 := Rect.unit (s := S1000x3) ![0, 0] S1000x3.size inb_S1000x3_S1000x3_0_0

/-- What the body leaves in the output block, from the five input blocks: its one store, of the payload of the loads. -/
def outBlock (x : Vec F S1000x128 .f32) (w1 : Vec F S128x128 .f32) (b1 : Vec F S128 .f32) (w2 : Vec F S128x3 .f32)
    (b2 : Vec F S3 .f32) : Vec F S1000x3 .f32 :=
  View.canon [⟨rOut, k0_pay1 (View.ld x rX) (View.ld w1 rW1) (View.ld b1 rB1) (View.ld w2 rW2) (View.ld b2 rB2)⟩]

/-- The store covers the block. -/
theorem out_cover (p0 : Vec F S1000x3 .f32) (y : S1000x3.Idx) :
    ∃ pc ∈ ([⟨rOut, p0⟩] : List (View.Piece (Elt F) S1000x3 .f32)), y ∈ pc.1.set :=
  View.cover_of_tiled [⟨rOut, p0⟩] S1000x3.size (by rfl) y

/-! ## The body's triple -/

set_option maxHeartbeats 1000000 in
/-- The body on whole buffers, the inputs' at contents `x … b2` and the output's at anything, runs to the
    continuation with the inputs' as they were and the output's at `outBlock` of them. -/
theorem sound_kernel (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x3 .f32) (harg4 : arg4.IsWhole)
    (arg5 : Memref sig .tc .vmem S3 .f32) (harg5 : arg5.IsWhole) (arg6 : Memref sig .tc .vmem S1000x3 .f32) (harg6 : arg6.IsWhole)
    (x0 : Vec F S1000x128 .f32) (x1 : Vec F S128x128 .f32) (x2 : Vec F S128 .f32) (x3 : Vec F S128x3 .f32) (x4 : Vec F S3 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__mlp_body i arg1 harg1 arg2 harg2 arg3 harg3 arg4 harg4 arg5 harg5 arg6 harg6) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The launch's proof data -/

/-- On core `c`: the arrays as the launch finds them; after the body at point `t` each input's buffer at its block
    and the output's at `outBlock` of the input blocks; the library's invariant for a body with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and the
    core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- Every weakly fair execution of the program terminates without fault; at the end each staged array holds what
    its write-backs left and every other unscoped buffer what the lines after the launch compute from that. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps_arrays)
    (hmain := hmain m Variants.none) (hA := A_eq m) (hΦ := fun _ _ => rfl)

/-- The program runs, and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m (dats m) (A_eq m) r h c) (run_main m ρ)

end Cert.Kernel.Mlp

end
-- ==== Proof.MlpRunIdeal.lean ====
/-
  The run of the program around its one launch, and what it leaves.

  The program is: host lines computing the edge mask from the integer inputs; one launch over a grid of ten
  points, point t taking rows 1000·t … 1000·t + 999 of the node features together with the whole of both weight
  matrices and both bias vectors, and writing rows 1000·t … 1000·t + 999 of a [10000, 3] array; then host lines
  that gather, scatter-add, divide and scatter over that array and the other inputs.

  Here: the buffer contents when the launch is entered; that the later lines allocate nothing and never write an
  array the launch stages; what the body leaves in the output block (its one store, covering the block); the
  body's triple; the proof data of the launch; and the run — every execution terminates without fault, each
  staged array ends at what its write-backs left, and every other buffer at what the later lines compute from that.
  All of it holds at any float instance.
-/
import proofs.«167874_g68504728371696_cont_9to1c4b_637_2_alg».proof.Proof.Gen.KernelIdeal.Launch
import proofs.«167874_g68504728371696_cont_9to1c4b_637_2_alg».proof.Proof.Gen.KernelIdeal.Skeleton
import proofs.«167874_g68504728371696_cont_9to1c4b_637_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The lines after the launch, stretch by stretch. -/
abbrev tailOps : List (List (HloOp τ sig (Elt F))) :=
  [hostOps1, hostOps1_1, hostOps1_2, hostOps1_3, hostOps1_4, hostOps1_5, hostOps1_6]

/-- The buffer contents of core `c` when the launch is entered: the lines before it applied to the initial memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor

/-- The program is: the lines before the launch, the launch, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh0) main_chain

/-- Membership in the list of stretches, spelt out. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5 ∨ ops = hostOps1_6 := by
  simpa only [List.mem_cons, List.mem_nil_iff, or_false] using h

/-- The later lines touch only the staged arrays and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  rcases mem_tailOps hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

/-- A reference that is no result buffer of the lines before the launch is not written by them. -/
theorem pre_keeps (r : Ref sig .tc)
    (hr : r ∉ ([main_v0, main_v1, main_v2, main_v3, main_v4, main_v5, main_c, main_v6, main_v7, main_v8, main_v9, main_cst,
      main_v10, main_v11, main_c_0, main_v12, main_v13, main_c_1, main_v14, main_v15, main_v16, main_v17, main_v18, main_v19,
      main_c_2, main_v20, main_v21, main_c_3, main_v22, main_v23, main_v24, main_v25, main_v26, main_v27, main_v28] : List (Ref sig .tc))) :
    ∀ op ∈ (hostOps0 : List (HloOp τ sig (Elt F))), Proc.devRef .tc r ∉ op.writes := by
  refine List.forall_iff_forall_mem.mp ?_
  simp only [List.mem_cons, List.mem_nil_iff, or_false, not_or] at hr
  simp only [hostOps0, List.Forall, StableHlo.nullary_writes, StableHlo.unary_writes, StableHlo.binary_writes,
    StableHlo.ternary_writes, StableHlo.reshape_writes, Finset.mem_singleton]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine StableHlo.devRef_ne_of_ne ?_ <;> simp only [hr, not_false_eq_true, ne_eq]

/-- The result buffers of the lines after the launch. -/
abbrev tailResults : List (Ref sig .tc) :=
  [main_v30, main_v31, main_c_4, main_v32, main_v33, main_c_5, main_v34, main_v35, main_v36, main_v37, main_v38, main_cst_6,
   main_call0_v0, main_call0_v1, main_v39,
   main_v40, main_cst_7, main_v41, main_v42, main_v43, main_cst_8,
   main_call1_v0, main_call1_v1, main_v44,
   main_c_9, main_v45, main_v46, main_c_10, main_v47, main_v48, main_v49, main_v50, main_v51, main_v52, main_v53, main_cst_11,
   main_v54, main_v55, main_v56, main_v57, main_v58, main_c_12, main_v59, main_v60, main_c_13, main_v61, main_v62, main_v63,
   main_v64, main_v65, main_c_14, main_v66, main_v67, main_c_15, main_v68, main_v69, main_v70, main_v71, main_v72, main_v73,
   main_c_16, main_v74, main_v75, main_c_17, main_v76, main_v77, main_v78, main_v79, main_v80, main_v81, main_c_18,
   main_call2_v0, main_call2_v1, main_v82,
   main_c_19, main_v83, main_v84, main_c_20, main_v85, main_v86, main_v87, main_v88, main_v89]

/-- A reference that is no result buffer of the lines after the launch is not written by them. -/
theorem tail_keeps (r : Ref sig .tc) (hr : r ∉ tailResults) :
    ∀ ops ∈ (tailOps : List (List (HloOp τ sig (Elt F)))), ∀ op ∈ ops, Proc.devRef .tc r ∉ op.writes := by
  simp only [tailResults, List.mem_cons, List.mem_nil_iff, or_false, not_or] at hr
  intro ops hops
  rcases mem_tailOps hops with rfl | rfl | rfl | rfl | rfl | rfl | rfl <;>
    refine List.forall_iff_forall_mem.mp ?_ <;>
    simp only [hostOps1, hostOps1_1, hostOps1_2, hostOps1_3, hostOps1_4, hostOps1_5, hostOps1_6, List.Forall,
      StableHlo.TRef.unary, StableHlo.TRef.binary, StableHlo.TRef.ternary, StableHlo.TRef.of,
      StableHlo.nullary_writes, StableHlo.unary_writes, StableHlo.binary_writes,
      StableHlo.ternary_writes, StableHlo.reshape_writes, Finset.mem_singleton] <;>
    repeat' apply And.intro
  all_goals refine StableHlo.devRef_ne_of_ne ?_
  all_goals simp only [hr, not_false_eq_true, ne_eq]

/-- The later lines write no staged array. -/
theorem tail_keeps_arrays : ∀ ops ∈ (tailOps : List (List (HloOp τ sig (Elt F)))), ∀ op ∈ ops,
    ∀ w, Proc.devRef .tc (Pipeline.arrRef spec0 w) ∉ op.writes := by
  intro ops hops op hop w
  exact tail_keeps (Pipeline.arrRef spec0 w) (by fin_cases w <;> decide) ops hops op hop

/-- The result buffers of the lines before the launch. -/
abbrev preResults : List (Ref sig .tc) :=
  [main_v0, main_v1, main_v2, main_v3, main_v4, main_v5, main_c, main_v6, main_v7, main_v8, main_v9, main_cst,
   main_v10, main_v11, main_c_0, main_v12, main_v13, main_c_1, main_v14, main_v15, main_v16, main_v17, main_v18, main_v19,
   main_c_2, main_v20, main_v21, main_c_3, main_v22, main_v23, main_v24, main_v25, main_v26, main_v27, main_v28]

/-- A buffer the lines before the launch do not write is found by the launch as it was at the start. -/
theorem V_kept (c : Dev nD) (r : Ref sig .tc) (hr : r ∉ preResults) : V m c r = m ((c : Thread nD τ).loc r) :=
  StableHlo.after_of_forall_not_mem (b := Proc.devRef .tc r) _ _ (by
    simp only [List.flatten_cons, List.flatten_nil, List.append_nil]; exact pre_keeps r hr)

/-- A buffer that is no staged array and that the lines after the launch do not write ends as the launch found it. -/
theorem W_kept (dats : (p : Fin 1) → (c : Dev nD) → Dat τ (Elt F) Unit ℕ (UR sig nD τ) ℕ (cfgs p) c) (c : Dev nD)
    (r : Ref sig .tc) (hr : r ∉ tailResults) (ha : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (fun op hop => by
        obtain ⟨ops, hops, hop'⟩ := List.mem_flatten.mp hop
        exact tail_keeps r hr ops hops op hop'),
    Pipeline.withArrays_of_ne _ c (V0 m c) _ r ha]

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current buffer holds its block at every point, whether the point fetched it or not (an
    unfetched window's block index has not moved since the last fetch). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the library's post — each staged array at what its write-backs left, every other buffer at what
    the later lines compute — the nine argument arrays end as they started: the five staged ones are inputs, never
    written back; the other four are written by no host line. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_kept m c main_arg0 (by decide)))),
   ((h c).2 main_arg1 (Pipeline.mem_restRefs_of main_arg1 (by decide) (by decide))).trans
     ((W_kept m dats c main_arg1 (by decide) (by decide)).trans (V_kept m c main_arg1 (by decide))),
   ((h c).2 main_arg2 (Pipeline.mem_restRefs_of main_arg2 (by decide) (by decide))).trans
     ((W_kept m dats c main_arg2 (by decide) (by decide)).trans (V_kept m c main_arg2 (by decide))),
   ((h c).2 main_arg3 (Pipeline.mem_restRefs_of main_arg3 (by decide) (by decide))).trans
     ((W_kept m dats c main_arg3 (by decide) (by decide)).trans (V_kept m c main_arg3 (by decide))),
   ((h c).2 main_arg4 (Pipeline.mem_restRefs_of main_arg4 (by decide) (by decide))).trans
     ((W_kept m dats c main_arg4 (by decide) (by decide)).trans (V_kept m c main_arg4 (by decide))),
   ((h c).1 1).trans (((dats 0 c).arrAt_in 1 rfl _).trans ((hA c 1).trans (V_kept m c main_arg5 (by decide)))),
   ((h c).1 2).trans (((dats 0 c).arrAt_in 2 rfl _).trans ((hA c 2).trans (V_kept m c main_arg6 (by decide)))),
   ((h c).1 3).trans (((dats 0 c).arrAt_in 3 rfl _).trans ((hA c 3).trans (V_kept m c main_arg7 (by decide)))),
   ((h c).1 4).trans (((dats 0 c).arrAt_in 4 rfl _).trans ((hA c 4).trans (V_kept m c main_arg8 (by decide))))⟩

end Cert.KernelIdeal.Mlp

end
-- ==== Proof.MlpBodyIdeal.lean ====
/-
  The launch's body and the run of the whole program.

  At each grid point the body reads its row block x (1000 × 128) and the whole of W1, b1, W2, b2, and stores
  relu(x·W1 + b1)·W2 + b2 over its whole 1000 × 3 output block (it also reads the output block first, a value it
  never uses). So after the body the output block holds that one stored value, whatever it held before, and the
  input blocks are as they were. With that as the launch's proof data the library's launch theorem gives the run:
  every execution of the program terminates without fault, each staged array ends at what its write-backs left and
  every other buffer at what the host lines after the launch compute; the nine argument arrays end unchanged.
-/
import proofs.«167874_g68504728371696_cont_9to1c4b_637_2_alg».proof.Proof.MlpRunIdeal

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole buffer -/

abbrev rX : Rect S1000x128 := Rect.unit (s := S1000x128) ![0, 0] S1000x128.size inb_S1000x128_S1000x128_0_0
abbrev rW1 : Rect S128x128 := Rect.unit (s := S128x128) ![0, 0] S128x128.size inb_S128x128_S128x128_0_0
abbrev rB1 : Rect S128 := Rect.unit (s := S128) ![0] S128.size inb_S128_S128_0
abbrev rW2 : Rect S128x3 := Rect.unit (s := S128x3) ![0, 0] S128x3.size inb_S128x3_S128x3_0_0
abbrev rB2 : Rect S3 := Rect.unit (s := S3) ![0] S3.size inb_S3_S3_0
abbrev rOut : Rect S1000x3 := Rect.unit (s := S1000x3) ![0, 0] S1000x3.size inb_S1000x3_S1000x3_0_0

/-- What the body leaves in the output block, from the five input blocks: its one store, of the payload of the loads. -/
def outBlock (x : Vec F S1000x128 .f32) (w1 : Vec F S128x128 .f32) (b1 : Vec F S128 .f32) (w2 : Vec F S128x3 .f32)
    (b2 : Vec F S3 .f32) : Vec F S1000x3 .f32 :=
  View.canon [⟨rOut, k0_pay1 (View.ld x rX) (View.ld w1 rW1) (View.ld b1 rB1) (View.ld w2 rW2) (View.ld b2 rB2)⟩]

/-- The store covers the block. -/
theorem out_cover (p0 : Vec F S1000x3 .f32) (y : S1000x3.Idx) :
    ∃ pc ∈ ([⟨rOut, p0⟩] : List (View.Piece (Elt F) S1000x3 .f32)), y ∈ pc.1.set :=
  View.cover_of_tiled [⟨rOut, p0⟩] S1000x3.size (by rfl) y

/-! ## The body's triple -/

set_option maxHeartbeats 1000000 in
/-- The body on whole buffers, the inputs' at contents `x … b2` and the output's at anything, runs to the
    continuation with the inputs' as they were and the output's at `outBlock` of them. -/
theorem sound_kernel (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x3 .f32) (harg4 : arg4.IsWhole)
    (arg5 : Memref sig .tc .vmem S3 .f32) (harg5 : arg5.IsWhole) (arg6 : Memref sig .tc .vmem S1000x3 .f32) (harg6 : arg6.IsWhole)
    (x0 : Vec F S1000x128 .f32) (x1 : Vec F S128x128 .f32) (x2 : Vec F S128 .f32) (x3 : Vec F S128x3 .f32) (x4 : Vec F S3 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__mlp_body i arg1 harg1 arg2 harg2 arg3 harg3 arg4 harg4 arg5 harg5 arg6 harg6) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The launch's proof data -/

/-- On core `c`: the arrays as the launch finds them; after the body at point `t` each input's buffer at its block
    and the output's at `outBlock` of the input blocks; the library's invariant for a body with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and the
    core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- Every weakly fair execution of the program terminates without fault; at the end each staged array holds what
    its write-backs left and every other unscoped buffer what the lines after the launch compute from that. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps_arrays)
    (hmain := hmain m Variants.none) (hA := A_eq m) (hΦ := fun _ _ => rfl)

/-- The program runs, and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m (dats m) (A_eq m) r h c) (run_main m ρ)

end Cert.KernelIdeal.Mlp

end
-- ==== Proof.EdgeTail.lean ====
/-
  What both programs do with the decoded velocities: the centre-of-mass correction over the masked edges.

  With dv the [10000, 3] array of decoded velocities, `mask` the edge mask, `snd` / `rcv` the edges' sender and
  receiver rows and `masses` the node masses:
    m_e  = max(1e-12, masses[snd]) · mask                (per edge; the mask as 0 / 1)
    M    = max(1e-12, Σ_{e : rcv e = v} m_e)             (per node)
    com  = (Σ_{e : rcv e = v} dv[snd e] · m_e) / M       (per node and component)
    body = dv[snd] + (dv[rcv] − com[rcv])                (per edge and component)
  and the result is dv with row snd e replaced by body e for every masked edge e (an unmasked edge's update goes to
  row 10000, outside the array, and is dropped). Row numbers are made non-negative first, a negative one by
  adding 10000, as array indexing does. The sums are scatter-adds into zeros.

  The function is stated once, over any float instance, in the words of the host operations, so that each program's
  result can be shown to be this function of its own decoded velocities without ever opening it.
-/
import proofs.«167874_g68504728371696_cont_9to1c4b_637_2_alg».proof.ReferenceIdeal

noncomputable section

namespace Cert.EdgeTail

open Cert.ReferenceIdeal Idealize.ShloMosaic

variable {F : FTy → Type} [FloatOps F] [Facts₀]
open Facts₀

/-- Edge row numbers made non-negative (a negative one plus 10000) and laid out as a column of indices. -/
abbrev rowIdx (ix : (⟨S320000, .i32⟩ : BufTy).Contents (Elt F)) : (⟨S320000x1, .i32⟩ : BufTy).Contents (Elt F) :=
  broadcastInDim S320000x1 ![0] bcast_S320000_S320000x1_0
    (select (cmpi .slt ix (broadcastInDim S320000 ![] bcast_S_S320000 (constantI S_ 32 0#32)))
      (addi ix (broadcastInDim S320000 ![] bcast_S_S320000 (constantI S_ 32 10000#32))) ix)

/-- The edges' masses: the sender's mass, at least 1e-12, times the mask. -/
abbrev edgeMass (mask : (⟨S320000, .i1⟩ : BufTy).Contents (Elt F)) (snd : (⟨S320000, .i32⟩ : BufTy).Contents (Elt F))
    (masses : (⟨S10000x1, .f32⟩ : BufTy).Contents (Elt F)) : (⟨S320000x1, .f32⟩ : BufTy).Contents (Elt F) :=
  mulf (maximumf (broadcastInDim S320000x1 ![] bcast_S_S320000x1 (id (constant S_ .f32 0x2B8CBCCC#32)))
      (Host.gather gather_S10000x1_S320000x1_S320000x1_1_0_n_n_0_1_11 masses (rowIdx snd)))
    (broadcastInDim S320000x1 ![0] bcast_S320000_S320000x1_0 (uitofp .f32 mask))

/-- The nodes' received mass, at least 1e-12. -/
abbrev nodeMass (mask : (⟨S320000, .i1⟩ : BufTy).Contents (Elt F)) (snd rcv : (⟨S320000, .i32⟩ : BufTy).Contents (Elt F))
    (masses : (⟨S10000x1, .f32⟩ : BufTy).Contents (Elt F)) : (⟨S10000x1, .f32⟩ : BufTy).Contents (Elt F) :=
  maximumf (broadcastInDim S10000x1 ![] bcast_S_S10000x1 (id (constant S_ .f32 0x2B8CBCCC#32)))
    (Host.scatterAdd scatter_S10000x1_S320000x1_S320000x1_1_0_0_1
      (broadcastInDim S10000x1 ![] bcast_S_S10000x1 (constant S_ .f32 0x00000000#32))
      (broadcastInDim S320000x1 ![0] bcast_S320000_S320000x1_0 rcv) (edgeMass mask snd masses))

/-- The nodes' mass-weighted mean of their senders' velocities. -/
abbrev centre (dv : (⟨S10000x3, .f32⟩ : BufTy).Contents (Elt F)) (mask : (⟨S320000, .i1⟩ : BufTy).Contents (Elt F))
    (snd rcv : (⟨S320000, .i32⟩ : BufTy).Contents (Elt F)) (masses : (⟨S10000x1, .f32⟩ : BufTy).Contents (Elt F)) :
    (⟨S10000x3, .f32⟩ : BufTy).Contents (Elt F) :=
  Host.divf
    (Host.scatterAdd scatter_S10000x3_S320000x1_S320000x3_1_0_0_1
      (broadcastInDim S10000x3 ![] bcast_S_S10000x3 (constant S_ .f32 0x00000000#32))
      (broadcastInDim S320000x1 ![0] bcast_S320000_S320000x1_0 rcv)
      (mulf (Host.gather gather_S10000x3_S320000x1_S320000x3_1_0_n_n_0_1_13 dv (rowIdx snd))
        (broadcastInDim S320000x3 ![0, 1] bcast_S320000x1_S320000x3_0_1 (edgeMass mask snd masses))))
    (broadcastInDim S10000x3 ![0, 1] bcast_S10000x1_S10000x3_0_1 (nodeMass mask snd rcv masses))

/-- The corrected velocities: dv with the masked edges' sender rows replaced. -/
def correct (dv : (⟨S10000x3, .f32⟩ : BufTy).Contents (Elt F)) (mask : (⟨S320000, .i1⟩ : BufTy).Contents (Elt F))
    (snd rcv : (⟨S320000, .i32⟩ : BufTy).Contents (Elt F)) (masses : (⟨S10000x1, .f32⟩ : BufTy).Contents (Elt F)) :
    (⟨S10000x3, .f32⟩ : BufTy).Contents (Elt F) :=
  Host.scatter scatter_S10000x3_S320000x1_S320000x3_1_0_0_1 (fun _ b => b) dv
    (rowIdx (select mask snd (broadcastInDim S320000 ![] bcast_S_S320000 (id (constantI S_ 32 10000#32)))))
    (addf (Host.gather gather_S10000x3_S320000x1_S320000x3_1_0_n_n_0_1_13 dv (rowIdx snd))
      (subf (Host.gather gather_S10000x3_S320000x1_S320000x3_1_0_n_n_0_1_13 dv (rowIdx rcv))
        (Host.gather gather_S10000x3_S320000x1_S320000x3_1_0_n_n_0_1_13 (centre dv mask snd rcv masses) (rowIdx rcv))))

end Cert.EdgeTail

end
-- ==== Proof.KernelTail.lean ====
/-
  The program's result as the correction of what the launch wrote.

  After the launch the host lines compute the centre-of-mass correction from: the [10000, 3] array the launch wrote,
  and the mask, senders and receivers the lines before the launch computed from the integer inputs, and the masses.
  Those three are the same operations on the same arguments as the reference's first stages, so they are named by the
  reference's stages. The lines after the launch are the correction's operations in the correction's order.
-/
import proofs.«167874_g68504728371696_cont_9to1c4b_637_2_alg».proof.Proof.MlpBodyIdeal
import proofs.«167874_g68504728371696_cont_9to1c4b_637_2_alg».proof.Proof.EdgeTail
import proofs.«167874_g68504728371696_cont_9to1c4b_637_2_alg».proof.Proof.Gen.ReferenceIdeal.Read
import Idealize.ShloMosaic.Lib.StableHlo.Run

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.StableHlo (after_cons after_nil)

variable {F : FTy → Type} [FloatOps F]

variable (m : (ℓ : Loc nD τ sig) → Buf (Elt F) ℓ)

set_option maxHeartbeats 4000000 in
/-- From any buffer contents `W`, the lines after the launch leave in the result buffer the correction of what `W` holds
    in the launch's output array, under the mask, senders, receivers and masses `W` holds. -/
theorem tail_at (W : Valuation τ sig (Elt F)) :
    StableHlo.after (tailOps (F := F)).flatten W (Proc.devRef .tc main_v89)
      = Cert.EdgeTail.correct (F := F) (W (Proc.devRef .tc main_v29)) (W (Proc.devRef .tc main_v28)) (W (Proc.devRef .tc main_v1))
          (W (Proc.devRef .tc main_v3)) (W (Proc.devRef .tc main_arg2)) := by
  simp only [tailOps, hostOps1, hostOps1_1, hostOps1_2, hostOps1_3, hostOps1_4, hostOps1_5, hostOps1_6,
    List.flatten_cons, List.flatten_nil, List.append_nil, List.cons_append, List.nil_append]
  open Idealize.ShloMosaic.StableHlo in after_results_simp
  rfl

set_option maxHeartbeats 4000000 in
/-- The launch finds the senders as the reference's stage 1 of the edge list. -/
theorem V_senders (c : Dev nD) : V m c main_v1
    = Cert.ReferenceIdeal.Read.val_main_v1 (F := F) (m ((c.tc : Thread nD τ).loc main_arg3)) := by
  show StableHlo.after hostOps0 (fun b => m (c, b)) (Proc.devRef .tc main_v1) = _
  open Idealize.ShloMosaic.StableHlo in after_results_simp
  rfl

set_option maxHeartbeats 4000000 in
/-- The launch finds the receivers as the reference's stage 3 of the edge list. -/
theorem V_receivers (c : Dev nD) : V m c main_v3
    = Cert.ReferenceIdeal.Read.val_main_v3 (F := F) (m ((c.tc : Thread nD τ).loc main_arg3)) := by
  show StableHlo.after hostOps0 (fun b => m (c, b)) (Proc.devRef .tc main_v3) = _
  open Idealize.ShloMosaic.StableHlo in after_results_simp
  rfl

set_option maxHeartbeats 4000000 in
/-- The launch finds the edge mask as the reference's stage 28 of the node types, the edge list and the edge attributes. -/
theorem V_mask (c : Dev nD) : V m c main_v28
    = Cert.ReferenceIdeal.Read.val_main_v28 (F := F) (m ((c.tc : Thread nD τ).loc main_arg1))
        (m ((c.tc : Thread nD τ).loc main_arg3)) (m ((c.tc : Thread nD τ).loc main_arg4)) := by
  show StableHlo.after hostOps0 (fun b => m (c, b)) (Proc.devRef .tc main_v28) = _
  open Idealize.ShloMosaic.StableHlo in after_results_simp
  rfl

/-- The program's result buffer ends at the correction of the launch's output array under the reference's mask,
    senders and receivers of the arguments. -/
theorem result_is_correction (c : Dev nD) :
    Pipeline.afterTail₀ cfgs (dats m) 0 (V0 m) tailOps c main_v89
      = Cert.EdgeTail.correct (F := F) ((dats m 0 c).arrAt 5 cfg0.N)
          (Cert.ReferenceIdeal.Read.val_main_v28 (F := F) (m ((c.tc : Thread nD τ).loc main_arg1))
            (m ((c.tc : Thread nD τ).loc main_arg3)) (m ((c.tc : Thread nD τ).loc main_arg4)))
          (Cert.ReferenceIdeal.Read.val_main_v1 (F := F) (m ((c.tc : Thread nD τ).loc main_arg3)))
          (Cert.ReferenceIdeal.Read.val_main_v3 (F := F) (m ((c.tc : Thread nD τ).loc main_arg3)))
          (m ((c.tc : Thread nD τ).loc main_arg2)) := by
  unfold Pipeline.afterTail₀
  rw [tail_at]
  have e29 := Pipeline.withArrays_arr spec0 launch0.win.arr_inj c (V0 m c) (fun w => (dats m 0 c).arrAt w (cfgs 0).N) 5
  have e28 := Pipeline.withArrays_of_ne spec0 c (V0 m c) (fun w => (dats m 0 c).arrAt w (cfgs 0).N) main_v28 (by decide)
  have e1 := Pipeline.withArrays_of_ne spec0 c (V0 m c) (fun w => (dats m 0 c).arrAt w (cfgs 0).N) main_v1 (by decide)
  have e3 := Pipeline.withArrays_of_ne spec0 c (V0 m c) (fun w => (dats m 0 c).arrAt w (cfgs 0).N) main_v3 (by decide)
  have ea := Pipeline.withArrays_of_ne spec0 c (V0 m c) (fun w => (dats m 0 c).arrAt w (cfgs 0).N) main_arg2 (by decide)
  refine (congrArg₂ (fun a b => Cert.EdgeTail.correct (F := F) a b _ _ _) e29 (e28.trans (V_mask m c))).trans ?_
  refine (congrArg₂ (fun a b => Cert.EdgeTail.correct (F := F) _ _ a b _) (e1.trans (V_senders m c)) (e3.trans (V_receivers m c))).trans ?_
  exact congrArg (fun a => Cert.EdgeTail.correct (F := F) _ _ _ _ a) (ea.trans (V_kept m c main_arg2 (by decide)))

end Cert.KernelIdeal.Mlp

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.DecoderSpec.lean ====
/-
  The decoder, one row at a time.

  A node's decoded velocity depends on that node's feature row alone:
    out(q) = Σ_k max(Σ_j x(j)·W1(j,k) + b1(k), 0) · W2(k,q) + b2(q)        (q = 0, 1, 2; j, k over 128)
  over the extended reals. Stated for a row given as a function of the feature index, so that the same words serve
  a row of a 1000-row block and a row of the whole 10000-row array: a block's row p at grid point t is the array's row
  1000·t + p, and nothing else of the array enters.  The zero of the rectifier is kept as the float word it is
  printed as; it is the same word on both sides and is never evaluated.
-/
import Idealize.ShloMosaic.PureOps.Ideal
import Idealize.ShloMosaic.Lib.ValueIdx

noncomputable section

namespace Cert.Decoder

open Idealize.ShloMosaic Idealize.ShloMosaic.ValueIdx

/-- One feature row decoded to component `q`. -/
def row (xr : Fin 128 → EReal) (w1 : (⟨2, ![128, 128]⟩ : Shape).Idx → EReal) (b1 : (⟨1, ![128]⟩ : Shape).Idx → EReal)
    (w2 : (⟨2, ![128, 3]⟩ : Shape).Idx → EReal) (b2 : (⟨1, ![3]⟩ : Shape).Idx → EReal) (q : Fin 3) : EReal :=
  (∑ k : Fin 128, max ((∑ j : Fin 128, xr j * w1 (ix2 j k)) + b1 (ix1 k)) (Ideal.ofBits .f32 0x00000000#32) * w2 (ix2 k q))
    + b2 (ix1 q)

/-- The decoded row depends on the row and the parameters entry by entry. -/
theorem row_congr {xr xr' : Fin 128 → EReal} {w1 w1' : (⟨2, ![128, 128]⟩ : Shape).Idx → EReal}
    {b1 b1' : (⟨1, ![128]⟩ : Shape).Idx → EReal} {w2 w2' : (⟨2, ![128, 3]⟩ : Shape).Idx → EReal}
    {b2 b2' : (⟨1, ![3]⟩ : Shape).Idx → EReal} {q q' : Fin 3}
    (hx : ∀ j, xr j = xr' j) (hw1 : ∀ j k, w1 (ix2 j k) = w1' (ix2 j k)) (hb1 : ∀ k, b1 (ix1 k) = b1' (ix1 k))
    (hw2 : ∀ k q, w2 (ix2 k q) = w2' (ix2 k q)) (hb2 : ∀ q, b2 (ix1 q) = b2' (ix1 q)) (hq : q = q') :
    row xr w1 b1 w2 b2 q = row xr' w1' b1' w2' b2' q' := by
  subst hq
  unfold row
  simp only [hx, hw1, hb1, hw2, hb2]

end Cert.Decoder

end
-- ==== Proof.KernelPayload.lean ====
/-
  What the launch's body stores, entry by entry.

  The body's stored value at row p, component q of its 1000 × 3 block is the decoder applied to row p of its feature
  block: its two matrix products into zero accumulators are plain sums over the 128 contracted entries, each bias is
  a vector laid out as one row and repeated down the block, and the rectifier is the maximum with the zero word.
-/
import proofs.«167874_g68504728371696_cont_9to1c4b_637_2_alg».proof.Proof.Gen.KernelIdeal.Skeleton
import proofs.«167874_g68504728371696_cont_9to1c4b_637_2_alg».proof.Proof.LibPlainDot
import proofs.«167874_g68504728371696_cont_9to1c4b_637_2_alg».proof.Proof.DecoderSpec
import Idealize.ShloMosaic.Lib.ValueLayout
import Idealize.ShloMosaic.Lib.Pipeline.Value
import Idealize.ShloMosaic.PureOps.Ideal.Laws

set_option maxRecDepth 16384

noncomputable section

namespace Cert.KernelIdeal.Mlp

open Cert.KernelIdeal Cert.KernelIdeal.Gen Idealize.ShloMosaic Idealize.ShloMosaic.ValueIdx

/-- The stored block at (p, q) is row p of the feature block, decoded. -/
theorem payload_at (x : FVec Ideal S1000x128 .f32) (w1 : FVec Ideal S128x128 .f32) (b1 : FVec Ideal S128 .f32)
    (w2 : FVec Ideal S128x3 .f32) (b2 : FVec Ideal S3 .f32) (p : Fin 1000) (q : Fin 3) :
    k0_pay1 (F := Ideal) x w1 b1 w2 b2 (ix2 p q) = Cert.Decoder.row (fun j => x (ix2 p j)) w1 b1 w2 b2 q := by
  unfold k0_pay1 Cert.Decoder.row
  dsimp only
  rw [addf_apply]
  simp only [matmul]
  rw [matmul_plain_zero_apply dot_S1000x128_S128x3_S1000x3_1_0_0_1_n_n rfl, broadcastTo_1b_ab_apply, shapeCast_a_1a_apply]
  congr 1
  refine Finset.sum_congr rfl fun k _ => ?_
  rw [maximumf_apply, addf_apply, broadcast_apply, matmul_plain_zero_apply dot_S1000x128_S128x128_S1000x128_1_0_0_1_n_n rfl, broadcastTo_1b_ab_apply,
    shapeCast_a_1a_apply]
  rfl

end Cert.KernelIdeal.Mlp

end
-- ==== Proof.RefSide.lean ====
/-
  The reference's result is the correction applied to its own decoded velocities.

  The reference computes, in order: the edge mask, senders and receivers from the integer inputs; the decoded
  velocities relu(x·W1 + b1)·W2 + b2 over all 10000 rows at once; then the centre-of-mass correction. Its result,
  read back one operation at a time, is therefore the correction of those velocities under that mask.
-/
import proofs.«167874_g68504728371696_cont_9to1c4b_637_2_alg».proof.Proof.Gen.ReferenceIdeal.Run
import proofs.«167874_g68504728371696_cont_9to1c4b_637_2_alg».proof.Proof.Gen.ReferenceIdeal.Read
import proofs.«167874_g68504728371696_cont_9to1c4b_637_2_alg».proof.Proof.EdgeTail
import proofs.«167874_g68504728371696_cont_9to1c4b_637_2_alg».proof.Proof.LibPlainDot
import proofs.«167874_g68504728371696_cont_9to1c4b_637_2_alg».proof.Proof.DecoderSpec

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable {F : FTy → Type} [FloatOps F] [Facts₀]

/-- The last stage of the reference is the correction of its decoded velocities (stage 37) under its mask (stage 28),
    senders (stage 1) and receivers (stage 3): every operation after those is one of the correction's, in its order. -/
theorem result_is_correction (x0 : (⟨S10000x128, .f32⟩ : BufTy).Contents (Elt F)) (x1 : (⟨S10000x2, .i32⟩ : BufTy).Contents (Elt F))
    (x2 : (⟨S10000x1, .f32⟩ : BufTy).Contents (Elt F)) (x3 : (⟨S2x320000, .i32⟩ : BufTy).Contents (Elt F))
    (x4 : (⟨S320000x4, .f32⟩ : BufTy).Contents (Elt F)) (x5 : (⟨S128x128, .f32⟩ : BufTy).Contents (Elt F))
    (x6 : (⟨S128, .f32⟩ : BufTy).Contents (Elt F)) (x7 : (⟨S128x3, .f32⟩ : BufTy).Contents (Elt F))
    (x8 : (⟨S3, .f32⟩ : BufTy).Contents (Elt F)) :
    val_main_v97 (F := F) x0 x1 x2 x3 x4 x5 x6 x7 x8
      = Cert.EdgeTail.correct (val_main_v37 (F := F) x0 x5 x6 x7 x8) (val_main_v28 (F := F) x1 x3 x4)
          (val_main_v1 (F := F) x3) (val_main_v3 (F := F) x3) x2 := rfl

/-- The reference's decoded velocities (stage 37) at row r, component q are row r of the features, decoded: its two
    matrix products are plain sums over the 128 contracted entries, each bias a vector spread over the rows, and the
    rectifier the maximum with the zero word. -/
theorem decoded_at (x0 : FVec Ideal S10000x128 .f32) (x5 : FVec Ideal S128x128 .f32) (x6 : FVec Ideal S128 .f32)
    (x7 : FVec Ideal S128x3 .f32) (x8 : FVec Ideal S3 .f32) (r : Fin 10000) (q : Fin 3) :
    val_main_v37 (F := Ideal) x0 x5 x6 x7 x8 (ix2 r q) = Cert.Decoder.row (fun j => x0 (ix2 r j)) x5 x6 x7 x8 q := by
  have hb1 : ∀ k : Fin 128, idx_main_v30 (idx_main_v31 (ix2 r k)) = ix1 k := fun k => funext fun a => by
    match a with
    | ⟨0, _⟩ => rfl
  have hb2 : idx_main_v35 (idx_main_v36 (ix2 r q)) = ix1 q := funext fun a => by
    match a with
    | ⟨0, _⟩ => rfl
  unfold Cert.Decoder.row
  rw [val_main_v37_apply, val_main_v36_apply, val_main_v35_apply, hb2]
  unfold val_main_v34
  simp only [Host.dotGeneral]
  rw [dotGeneral_plain_apply dot_S10000x128_S128x3_S10000x3_1_0_0_1_n_n rfl]
  show (∑ k : Fin 128, _) + _ = _
  congr 1
  refine Finset.sum_congr rfl fun k _ => ?_
  rw [val_main_v33_apply, val_main_call0_v0_apply, val_main_call0_cst_apply, val_main_v32_apply, val_main_v31_apply,
    val_main_v30_apply, hb1]
  unfold val_main_v29
  simp only [Host.dotGeneral]
  rw [dotGeneral_plain_apply dot_S10000x128_S128x128_S10000x128_1_0_0_1_n_n rfl]
  rfl

end Cert.ReferenceIdeal.RefValue

end
-- ==== Proof.KernelValue.lean ====
/-
  The array the launch writes is the decoder applied to every row.

  Grid point t writes back rows 1000·t … 1000·t + 999 of the output array; its feature block is those same rows of the
  features, and its other four blocks are the whole weight and bias arrays at every point. The stored block at (p, q)
  is row p of the feature block decoded, which is row 1000·t + p of the features decoded — the reference's decoded
  velocities (its stage 37) at (1000·t + p, q). The ten blocks tile the 10000 rows (row r lies in block r / 1000), so
  after the launch the array holds the reference's decoded velocities of the same arguments; and the program's result
  is then the correction of exactly what the reference corrects.
-/
import proofs.«167874_g68504728371696_cont_9to1c4b_637_2_alg».proof.Proof.KernelTail
import proofs.«167874_g68504728371696_cont_9to1c4b_637_2_alg».proof.Proof.KernelPayload
import proofs.«167874_g68504728371696_cont_9to1c4b_637_2_alg».proof.Proof.RefSide

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The block index maps over the grid: the features' and the output's blocks move down the rows with the point,
    and the weights' and biases' blocks stay at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The reference's decoded velocities of the arguments as the launch finds them. -/
def decoded (c : Dev nD) : (⟨S10000x3, .f32⟩ : BufTy).Contents (Elt Ideal) :=
  Cert.ReferenceIdeal.Read.val_main_v37 (F := Ideal) (V m c main_arg0) (V m c main_arg5) (V m c main_arg6) (V m c main_arg7)
    (V m c main_arg8)

/-- Row p of the feature block at point `t` is row 1000·t + p of the features. -/
theorem features_block (c : Dev nD) (t : Fin cfg0.N) (p : Fin 1000) (j : Fin 128) (hr : 1000 * t.val + p.val < 10000) :
    iblk m c 0 t (ix2 p j) = V m c main_arg0 (ix2 (⟨1000 * t.val + p.val, hr⟩ : Fin 10000) j) := by
  obtain ⟨e00, e01, -⟩ := index_maps t
  have h : ((cfg0.win 0).blk t).view.emb (ix2 p j) = ix2 (⟨1000 * t.val + p.val, hr⟩ : Fin 10000) j := by
    funext a; apply Fin.ext
    match a with
    | ⟨0, _⟩ => show win0_0.index t (0 : Fin 2) * 1000 + 1 * p.val = 1000 * t.val + p.val; omega
    | ⟨1, _⟩ => show win0_0.index t (1 : Fin 2) * 128 + 1 * j.val = j.val; omega
  show V m c main_arg0 (((cfg0.win 0).blk t).view.emb (ix2 p j)) = _
  rw [h]

/-- The first weight matrix's block is the whole matrix at every point. -/
theorem w1_block (c : Dev nD) (t : Fin cfg0.N) (j k : Fin 128) : iblk m c 1 t (ix2 j k) = V m c main_arg5 (ix2 j k) := by
  obtain ⟨-, -, e10, e11, -⟩ := index_maps t
  have h : ((cfg0.win 1).blk t).view.emb (ix2 j k) = ix2 j k := by
    funext a; apply Fin.ext
    match a with
    | ⟨0, _⟩ => show win0_1.index t (0 : Fin 2) * 128 + 1 * j.val = j.val; omega
    | ⟨1, _⟩ => show win0_1.index t (1 : Fin 2) * 128 + 1 * k.val = k.val; omega
  show V m c main_arg5 (((cfg0.win 1).blk t).view.emb (ix2 j k)) = _
  rw [h]

/-- The first bias vector's block is the whole vector at every point. -/
theorem b1_block (c : Dev nD) (t : Fin cfg0.N) (k : Fin 128) : iblk m c 2 t (ix1 k) = V m c main_arg6 (ix1 k) := by
  obtain ⟨-, -, -, -, e20, -⟩ := index_maps t
  have h : ((cfg0.win 2).blk t).view.emb (ix1 k) = ix1 k := by
    funext a; apply Fin.ext
    match a with
    | ⟨0, _⟩ => show win0_2.index t (0 : Fin 1) * 128 + 1 * k.val = k.val; omega
  show V m c main_arg6 (((cfg0.win 2).blk t).view.emb (ix1 k)) = _
  rw [h]

/-- The second weight matrix's block is the whole matrix at every point. -/
theorem w2_block (c : Dev nD) (t : Fin cfg0.N) (k : Fin 128) (q : Fin 3) : iblk m c 3 t (ix2 k q) = V m c main_arg7 (ix2 k q) := by
  obtain ⟨-, -, -, -, -, e30, e31, -⟩ := index_maps t
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 3 + 1 * q.val = q.val; omega
  show V m c main_arg7 (((cfg0.win 3).blk t).view.emb (ix2 k q)) = _
  rw [h]

/-- The second bias vector's block is the whole vector at every point. -/
theorem b2_block (c : Dev nD) (t : Fin cfg0.N) (q : Fin 3) : iblk m c 4 t (ix1 q) = V m c main_arg8 (ix1 q) := by
  obtain ⟨-, -, -, -, -, -, -, e40, -⟩ := index_maps t
  have h : ((cfg0.win 4).blk t).view.emb (ix1 q) = ix1 q := by
    funext a; apply Fin.ext
    match a with
    | ⟨0, _⟩ => show win0_4.index t (0 : Fin 1) * 3 + 1 * q.val = q.val; omega
  show V m c main_arg8 (((cfg0.win 4).blk t).view.emb (ix1 q)) = _
  rw [h]

/-- What point `t` writes back is block `t` of the decoded velocities. -/
theorem flushed_eq (c : Dev nD) (t : Fin cfg0.N) :
    (dats m 0 c).flushed 5 t = ((cfg0.win 5).blk t).view.read (Elt Ideal) (decoded m c) := by
  show (cfg0.win 5).cut (grid0.coords t) ((dats m 0 c).after 5 t) = _
  rw [after_5]
  unfold outBlock
  rw [View.canon_unit_zero off2]
  simp only [View.ld_unit_zero (S := S1000x128) off2, View.ld_unit_zero (S := S128x128) off2,
    View.ld_unit_zero (S := S128) off1, View.ld_unit_zero (S := S128x3) off2, View.ld_unit_zero (S := S3) off1]
  obtain ⟨-, -, -, -, -, -, -, -, e50, e51⟩ := index_maps t
  have htN : t.val < 10 := lt_of_lt_of_eq t.isLt N_0
  funext j
  obtain ⟨p, q, rfl⟩ : ∃ (p : Fin 1000) (q : Fin 3), j = ix2 p q := ⟨j 0, j 1, eq_ix2 j⟩
  have hr : 1000 * t.val + p.val < 10000 := by have := p.isLt; omega
  have hemb : ((cfg0.win 5).blk t).view.emb (ix2 p q) = ix2 (⟨1000 * t.val + p.val, hr⟩ : Fin 10000) q := by
    funext a; apply Fin.ext
    match a with
    | ⟨0, _⟩ => show win0_5.index t (0 : Fin 2) * 1000 + 1 * p.val = 1000 * t.val + p.val; omega
    | ⟨1, _⟩ => show win0_5.index t (1 : Fin 2) * 3 + 1 * q.val = q.val; omega
  show k0_pay1 (F := Ideal) (iblk m c 0 t) (iblk m c 1 t) (iblk m c 2 t) (iblk m c 3 t) (iblk m c 4 t) (ix2 p q)
    = decoded m c (((cfg0.win 5).blk t).view.emb (ix2 p q))
  rw [hemb]
  refine (payload_at (iblk m c 0 t) (iblk m c 1 t) (iblk m c 2 t) (iblk m c 3 t) (iblk m c 4 t) p q).trans ?_
  refine Eq.trans ?_ (Cert.ReferenceIdeal.RefValue.decoded_at (V m c main_arg0) (V m c main_arg5) (V m c main_arg6)
    (V m c main_arg7) (V m c main_arg8) ⟨1000 * t.val + p.val, hr⟩ q).symm
  exact Cert.Decoder.row_congr (fun j => features_block m c t p j hr) (fun j k => w1_block m c t j k)
    (fun k => b1_block m c t k) (fun k q' => w2_block m c t k q') (fun q' => b2_block m c t q') rfl

/-- An index of the output array is in point `t`'s block iff each coordinate is in the block's range on its axis. -/
theorem mem_block (t : Fin cfg0.N) (i : S10000x3.Idx) :
    i ∈ ((cfg0.win 5).blk t).view.set ↔ ∀ a : Fin 2, win0_5.index t a * S1000x3.size a ≤ (i a).val
      ∧ (i a).val < win0_5.index t a * S1000x3.size a + S1000x3.size a := by
  show i ∈ ((View.whole main_v29).slice (win0_5.rect t)).set ↔ _
  rw [View.set_slice_whole, Rect.mem_set_unit]
  exact Iff.rfl

/-- Every row of the output array lies in a block that is written back: row r in block r / 1000. -/
theorem blocks_cover (i : S10000x3.Idx) :
    ∃ t : Fin cfg0.N, (cfg0.win 5).flush t = true ∧ i ∈ ((cfg0.win 5).blk t).view.set := by
  have hi0 : (i 0).val < 10000 := (i 0).isLt
  have hi1 : (i 1).val < 3 := (i 1).isLt
  have hN : (i 0).val / 1000 < cfg0.N := by rw [show cfg0.N = 10 from N_0]; omega
  obtain ⟨-, -, -, -, -, -, -, -, e50, e51⟩ := index_maps ⟨(i 0).val / 1000, hN⟩
  refine ⟨⟨(i 0).val / 1000, hN⟩, flush0_5 _, ?_⟩
  rw [mem_block]
  intro a
  match a with
  | ⟨0, _⟩ =>
    show win0_5.index ⟨(i 0).val / 1000, hN⟩ (0 : Fin 2) * 1000 ≤ (i 0).val
      ∧ (i 0).val < win0_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win0_5.index ⟨(i 0).val / 1000, hN⟩ (1 : Fin 2) * 3 ≤ (i 1).val
      ∧ (i 1).val < win0_5.index ⟨(i 0).val / 1000, hN⟩ (1 : Fin 2) * 3 + 3
    rw [e51]; omega

/-- After the launch the output array holds the reference's decoded velocities of the arguments. -/
theorem written (c : Dev nD) : (dats m 0 c).arrAt 5 cfg0.N
    = Cert.ReferenceIdeal.Read.val_main_v37 (F := Ideal) (m ((c.tc : Thread nD τ).loc main_arg0))
        (m ((c.tc : Thread nD τ).loc main_arg5)) (m ((c.tc : Thread nD τ).loc main_arg6))
        (m ((c.tc : Thread nD τ).loc main_arg7)) (m ((c.tc : Thread nD τ).loc main_arg8)) := by
  rw [(dats m 0 c).arrAt_eq_of_cover 5 (decoded m c) (fun t _ => flushed_eq m c t) blocks_cover]
  unfold decoded
  rw [V_kept m c main_arg0 (by decide), V_kept m c main_arg5 (by decide), V_kept m c main_arg6 (by decide),
    V_kept m c main_arg7 (by decide), V_kept m c main_arg8 (by decide)]

/-- The program's run, read: every execution terminates without fault, the result buffer holds the correction of the
    reference's decoded velocities under the reference's mask, senders and receivers, all of the program's own
    arguments, and the arguments are unchanged. -/
theorem run : θ_run defs (onTc (τ := τ) (main (F := Ideal))) ⟨m, fun _ => 0, ρ⟩ fun r => ∀ c : Dev nD,
      r.2.mem ((c.tc : Thread nD τ).loc main_v89)
        = Cert.EdgeTail.correct (F := Ideal)
            (Cert.ReferenceIdeal.Read.val_main_v37 (F := Ideal) (m ((c.tc : Thread nD τ).loc main_arg0))
              (m ((c.tc : Thread nD τ).loc main_arg5)) (m ((c.tc : Thread nD τ).loc main_arg6))
              (m ((c.tc : Thread nD τ).loc main_arg7)) (m ((c.tc : Thread nD τ).loc main_arg8)))
            (Cert.ReferenceIdeal.Read.val_main_v28 (F := Ideal) (m ((c.tc : Thread nD τ).loc main_arg1))
              (m ((c.tc : Thread nD τ).loc main_arg3)) (m ((c.tc : Thread nD τ).loc main_arg4)))
            (Cert.ReferenceIdeal.Read.val_main_v1 (F := Ideal) (m ((c.tc : Thread nD τ).loc main_arg3)))
            (Cert.ReferenceIdeal.Read.val_main_v3 (F := Ideal) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h c).2 main_v89 (Pipeline.mem_restRefs_of main_v89 (by decide) (by decide))).trans
          ((result_is_correction m c).trans (by rw [written m c])),
        args_kept m (dats m) (A_eq m) r h c⟩)
    (run_main m ρ)

end Cert.KernelIdeal.Mlp

end
-- ==== Proof.lean ====
/-
  The five claims, assembled.

  Both programs compute the same thing: the decoded velocities relu(x·W1 + b1)·W2 + b2 of every node, then the
  centre-of-mass correction over the masked edges. They differ in how the decoded velocities are produced — the kernel
  decodes 1000 rows at each of ten grid points, the reference all 10000 rows at once — and a node's decoded velocity
  depends on that node's row alone, so the ten blocks are the rows of the one array. Everything after that is the same
  host operations on both sides, applied to equal arrays. No algebraic law is used beyond that reading, so the
  finiteness of the inputs is never needed.

  The frames of the two kernel programs are the launch theorem's run with the body's triple (at any float instance);
  the reference's frame is its run with the result dropped; nothing was rewritten by the idealization.
-/
import proofs.«167874_g68504728371696_cont_9to1c4b_637_2_alg».proof.Defs
import proofs.«167874_g68504728371696_cont_9to1c4b_637_2_alg».proof.Proof.Gen.Kernel
import proofs.«167874_g68504728371696_cont_9to1c4b_637_2_alg».proof.Proof.Gen.KernelIdeal
import proofs.«167874_g68504728371696_cont_9to1c4b_637_2_alg».proof.Proof.Gen.ReferenceIdeal
import proofs.«167874_g68504728371696_cont_9to1c4b_637_2_alg».proof.Proof.Gen.Pre_finite_inputs
import proofs.«167874_g68504728371696_cont_9to1c4b_637_2_alg».proof.Proof.MlpBodyBits
import proofs.«167874_g68504728371696_cont_9to1c4b_637_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Mlp.frame m ρ

/-- So does its idealization. -/
theorem frame_ideal : Cert.frame_KernelIdeal := fun m ρ _ => Cert.KernelIdeal.Mlp.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the correction of the same decoded velocities. -/
theorem algebraic : Cert.algebraic_KernelIdeal_ReferenceIdeal := by
  intro m ρ m' ρ' _ hagree
  refine ⟨_, Cert.KernelIdeal.Mlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, Cert.ReferenceIdeal.RefValue.result_is_correction,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
